-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S16384x4096 : Shape := ⟨2, ![16384, 4096]⟩
abbrev S1x4096 : Shape := ⟨2, ![1, 4096]⟩
abbrev S2048x1024 : Shape := ⟨2, ![2048, 1024]⟩
abbrev S1x2048 : Shape := ⟨2, ![1, 2048]⟩
abbrev S2048x2048 : Shape := ⟨2, ![2048, 2048]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S16384x4096, .f32⟩
  | .hbm, ⟨12, _⟩ => ⟨S16384x4096, .bf16⟩
  | .hbm, ⟨13, _⟩ => ⟨S1x4096, .f32⟩
  | .hbm, ⟨14, _⟩ => ⟨S16384x4096, .f32⟩
  | .hbm, ⟨15, _⟩ => ⟨S4x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4x4096x4096_S16384x4096 : S4x4096x4096.ShapeCasts S16384x4096
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S16384x4096_S4x4096x4096 : S16384x4096.ShapeCasts S4x4096x4096
  dot_S4096x16_S16x4096_S4096x4096_1_0_0_1_n_n_wf : DotDims.WF S4096x16 S16x4096 S4096x4096 [1] [0] [0] [1] [] []
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S16384x4096.size a
  hwx0_3 : ∀ i : grid0.Coords, EltTy.bits .f32 = 32 ∨ (Rect.block (s := S16384x4096) S2048x2048.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_v6) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  What each of the three control cases of the kernel body leaves in the output block's staging buffer, as a pure
  function of the two operand blocks, the bias block and (after the first step) the accumulator block the step before
  left. The body loads and stores whole blocks, so each case's last covering store is the whole content:
    first step   0 + x0 · x1ᵀ,   middle step   acc + x0 · x1ᵀ,   last step   (acc + x0 · x1ᵀ) + bias row.
-/
import proofs.«160215_j13881334300847_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Both offsets of a whole-block rectangle are zero. -/
theorem hz : (![0, 0] : Fin 2 → Nat) = fun _ => 0 := funext fun a => by fin_cases a <;> rfl

/-- At the first step of a sweep over the contraction blocks the body zeroes the accumulator block, reads it back and
    leaves  0 + x0 · x1ᵀ : the accumulate payload applied to the zero payload. -/
theorem out_A (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S2048x2048 .f32) (h6 : a6.IsWhole) (hc0 : cond0_0 i) (hc1 : ¬cond0_1 i)
    (x0 : Vec F S2048x1024 .bf16) (x1 : Vec F S2048x1024 .bf16) (x2 : Vec F S1x2048 .f32) :
    out0_A_3 c i a3 h3 a4 h4 a5 h5 a6 h6 hc0 hc1 x0 x1 x2 = k0_pay2 (k0_pay1 (F := F)) x0 x1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x1024) hz]

/-- At a middle step the body leaves  acc + x0 · x1ᵀ  over the accumulator block  acc  the step before left. -/
theorem out_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S2048x2048 .f32) (h6 : a6.IsWhole) (hc0 : ¬cond0_0 i) (hc1 : ¬cond0_1 i)
    (x0 : Vec F S2048x1024 .bf16) (x1 : Vec F S2048x1024 .bf16) (x2 : Vec F S1x2048 .f32) (xo : Vec F S2048x2048 .f32) :
    out0_B_3 c i a3 h3 a4 h4 a5 h5 a6 h6 hc0 hc1 x0 x1 x2 xo = k0_pay2 xo x0 x1 := by
  unfold out0_B_3
  rw [View.read_writes_eq_canon _ _ _ (cover0_B_3 c i a3 h3 a4 h4 a5 h5 a6 h6 hc0 hc1 x0 x1 x2 xo)]
  unfold kernelRun0_B
  dsimp only
  sl_unfold_words
  rw [View.canon_unit_zero (S := S2048x2048) hz]
  simp only [View.readAt_eq_ld, h3.read_unread, h4.read_unread, h6.read_unread, View.ld_unit_zero (S := S2048x1024) hz,
    View.ld_unit_zero (S := S2048x2048) hz]

/-- At the last step the body accumulates as before, reads the block back and adds the bias row to every row of it. -/
theorem out_C (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S2048x2048 .f32) (h6 : a6.IsWhole) (hc0 : ¬cond0_0 i) (hc1 : cond0_1 i)
    (x0 : Vec F S2048x1024 .bf16) (x1 : Vec F S2048x1024 .bf16) (x2 : Vec F S1x2048 .f32) (xo : Vec F S2048x2048 .f32) :
    out0_C_3 c i a3 h3 a4 h4 a5 h5 a6 h6 hc0 hc1 x0 x1 x2 xo = k0_pay3 (k0_pay2 xo x0 x1) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x2048) hz, View.readCov_unit_zero (S := S2048x2048) _ hz]
  simp only [View.readAt_eq_ld, h3.read_unread, h4.read_unread, h5.read_unread, h6.read_unread,
    View.ld_unit_zero (S := S2048x1024) hz, View.ld_unit_zero (S := S2048x2048) hz, View.ld_unit_zero (S := S1x2048) hz]

end Cert.KernelIdeal.Pieces

end
-- ==== Proof.Chain.lean ====
/-
  The accumulator block at the end of a sweep.

  The grid runs the contraction axis innermost: points n, n+1, n+2, n+3 with n a multiple of 4 are the four steps of one
  sweep over the 1024-wide contraction blocks for a fixed output block, and the output block's staging buffer is carried
  from each step to the next. So what the buffer holds after the last step is the bias payload over three accumulate
  payloads over the first step's  0 + product, each at its own point's operand blocks.
-/
import proofs.«160215_j13881334300847_2_alg».proof.Proof.Gen.KernelIdeal.Frame
import Idealize.ShloMosaic.Lib.Pipeline.Value
import Idealize.ShloMosaic.Lib.Tactic
import proofs.«160215_j13881334300847_2_alg».proof.Proof.Pieces

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]

variable (m : (ℓ : Loc nD τ sig) → Buf (Elt F) ℓ)

/-- The accumulator's content depends on the point's number only. -/
theorem outsAt_congr (c : Dev nD) {a b : ℕ} (e : a = b) (ha : a < cfg0.N) (hb : b < cfg0.N) :
    outsAt0 m c a ha = outsAt0 m c b hb := by subst e; rfl

/-- After a first step: the product over the zero block. -/
theorem step_first (c : Dev nD) (t : Fin cfg0.N) (h0 : t.val % 4 = 0) :
    outsAt0 m c t.val t.isLt = k0_pay2 (k0_pay1 (F := F)) (iblk m c 0 t) (iblk m c 1 t) :=
  (outsAt0_A m c t h0 (by omega)).trans
    (Pieces.out_A c (grid0.coords t) (ms0_0 t) (hs0_0 t) (ms0_1 t) (hs0_1 t) (ms0_2 t) (hs0_2 t) (ms0_3 t) (hs0_3 t) _ _
      (iblk m c 0 t) (iblk m c 1 t) (iblk m c 2 t))

/-- After a middle step: the product added to what the step before left. -/
theorem step_middle (c : Dev nD) (t : Fin cfg0.N) (h0 : ¬t.val % 4 = 0) (h1 : ¬t.val % 4 = 3) :
    outsAt0 m c t.val t.isLt
      = k0_pay2 (outsAt0 m c (t.val - 1) (Nat.lt_of_le_of_lt (Nat.sub_le _ _) t.isLt)) (iblk m c 0 t) (iblk m c 1 t) :=
  (outsAt0_B m c t h0 h1).trans
    (Pieces.out_B c (grid0.coords t) (ms0_0 t) (hs0_0 t) (ms0_1 t) (hs0_1 t) (ms0_2 t) (hs0_2 t) (ms0_3 t) (hs0_3 t) _ _
      (iblk m c 0 t) (iblk m c 1 t) (iblk m c 2 t) _)

/-- After a last step: the same, and the bias row added. -/
theorem step_last (c : Dev nD) (t : Fin cfg0.N) (h0 : ¬t.val % 4 = 0) (h1 : t.val % 4 = 3) :
    outsAt0 m c t.val t.isLt
      = k0_pay3 (k0_pay2 (outsAt0 m c (t.val - 1) (Nat.lt_of_le_of_lt (Nat.sub_le _ _) t.isLt)) (iblk m c 0 t) (iblk m c 1 t))
          (iblk m c 2 t) :=
  (outsAt0_C m c t h0 h1).trans
    (Pieces.out_C c (grid0.coords t) (ms0_0 t) (hs0_0 t) (ms0_1 t) (hs0_1 t) (ms0_2 t) (hs0_2 t) (ms0_3 t) (hs0_3 t) _ _
      (iblk m c 0 t) (iblk m c 1 t) (iblk m c 2 t) _)

/-- THE SWEEP. After the last of the four steps that start at point n (a multiple of 4) the accumulator block holds the
    four products added from zero in step order, and then the bias row. -/
theorem sweep (c : Dev nD) (n : ℕ) (h0 : n < cfg0.N) (h1 : n + 1 < cfg0.N) (h2 : n + 2 < cfg0.N) (h3 : n + 3 < cfg0.N)
    (hn : n % 4 = 0) :
    outsAt0 m c (n + 3) h3
      = k0_pay3 (k0_pay2 (k0_pay2 (k0_pay2 (k0_pay2 (k0_pay1 (F := F))
            (iblk m c 0 ⟨n, h0⟩) (iblk m c 1 ⟨n, h0⟩))
            (iblk m c 0 ⟨n + 1, h1⟩) (iblk m c 1 ⟨n + 1, h1⟩))
            (iblk m c 0 ⟨n + 2, h2⟩) (iblk m c 1 ⟨n + 2, h2⟩))
            (iblk m c 0 ⟨n + 3, h3⟩) (iblk m c 1 ⟨n + 3, h3⟩))
          (iblk m c 2 ⟨n + 3, h3⟩) := by
  have e3 := step_last m c ⟨n + 3, h3⟩ (by dsimp only; omega) (by dsimp only; omega)
  have e2 := step_middle m c ⟨n + 2, h2⟩ (by dsimp only; omega) (by dsimp only; omega)
  have e1 := step_middle m c ⟨n + 1, h1⟩ (by dsimp only; omega) (by dsimp only; omega)
  have e0 := step_first m c ⟨n, h0⟩ hn
  dsimp only at e3 e2 e1 e0
  rw [e3, outsAt_congr m c (show n + 3 - 1 = n + 2 from rfl) _ h2, e2,
    outsAt_congr m c (show n + 2 - 1 = n + 1 from rfl) _ h1, e1,
    outsAt_congr m c (show n + 1 - 1 = n from rfl) _ h0, e0]

end Cert.KernelIdeal.Chain

end
-- ==== Proof.LibProductRowsAt.lean ====
/-
  A product of rows by rows read at an index.

  Dimension numbers of a product [A, K] × [B, K] → [A, B] that contract the SECOND axis of both factors, with no batch
  axis, index the two factors at the result index (p, q) and the contraction index k by (p, k) and (q, k): the result
  is the left factor times the transpose of the right one. So any sum over the contraction index — a product into a zero
  accumulator, a host dot_general — is the sum over k < K of l (p, k) · r (q, k), and reads only row p of the left
  factor and row q of the right one. General: nothing here depends on a particular program. An instance supplies the
  two kept coordinates (`hl0`, `hr0`) and `rfl` four times.
-/
import Idealize.ShloMosaic.Lib.ValueIdx
import Idealize.ShloMosaic.PureOps.Ideal.Laws

noncomputable section

namespace Cert.ProductRowsAt

open Idealize.ShloMosaic Idealize.ShloMosaic.ValueIdx

/-- THE SUM, RE-INDEXED. Dimension numbers that contract axis 1 of both factors and keep the left factor's axis 0 and
    the right factor's axis 0 as the result's rows and columns (`hl0`, `hr0`): the sum over the contraction index is the
    sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (q : d.contr.Idx), (d.lhsIdx j q 0).val = (j 0).val)
    (hr0 : ∀ (j : (⟨2, ![A, B]⟩ : Shape).Idx) (q : d.contr.Idx), (d.rhsIdx j q 0).val = (j 1).val)
    (l : FVec Ideal (⟨2, ![A, K]⟩ : Shape) φ₁) (r : FVec Ideal (⟨2, ![B, K]⟩ : Shape) φ₂) (j : (⟨2, ![A, B]⟩ : Shape).Idx) :
    ∑ q : d.contr.Idx, l (d.lhsIdx j q) * r (d.rhsIdx j q)
      = ∑ k : Fin K, l (ix2 (j 0) k) * r (ix2 (j 1) k) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k :=
    funext fun a => Fin.ext (by
      match a with
      | ⟨0, _⟩ => exact hl0 j _
      | ⟨1, _⟩ => exact (d.lhsIdx_val_of_single hlc j _).trans hk)
  have er : d.rhsIdx j ((contrEquiv1 d K hr hs).symm k) = ix2 (j 1) k :=
    funext fun a => Fin.ext (by
      match a with
      | ⟨0, _⟩ => exact hr0 j _
      | ⟨1, _⟩ => exact (d.rhsIdx_val_of_single hrc j _).trans hk)
  exact congrArg₂ (· * ·) (congrArg l el) (congrArg r er)

end Cert.ProductRowsAt

end
-- ==== Proof.Payload.lean ====
/-
  The three payloads of the kernel body read at an entry (p, q) of the 2048 × 2048 block, on the extended reals:
    the zero payload is 0;
    the accumulate payload is  acc (p, q) + Σ_{k < 1024} x0 (p, k) · x1 (q, k)  — the product contracts the second
      axis of both operand blocks, so entry (p, q) reads row p of the first and row q of the second;
    the bias payload is  a (p, q) + bias (0, q)  — the 1 × 2048 bias row is repeated on every row of the block.
-/
import proofs.«160215_j13881334300847_2_alg».proof.Proof.Gen.KernelIdeal.Skeleton
import proofs.«160215_j13881334300847_2_alg».proof.Proof.LibProductRowsAt
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The zero payload at any entry. -/
theorem pay1_apply (y : S2048x2048.Idx) : k0_pay1 (F := Ideal) y = 0 := by
  show Ideal.ofBits .f32 0x00000000#32 = 0
  exact Ideal.ofBits_zero_f32

theorem lhs0 (j : S2048x2048.Idx) (q : dot_S2048x1024_S2048x1024_S2048x2048_1_1_0_0_n_n.contr.Idx) :
    (dot_S2048x1024_S2048x1024_S2048x2048_1_1_0_0_n_n.lhsIdx j q 0).val = (j 0).val := by
  unfold DotDims.lhsIdx
  rw [dif_neg (show ¬(0 : Fin S2048x1024.rank) ∈ dot_S2048x1024_S2048x1024_S2048x2048_1_1_0_0_n_n.lhsBatch by decide),
    dif_pos (show (0 : Fin S2048x1024.rank) ∈ dot_S2048x1024_S2048x1024_S2048x2048_1_1_0_0_n_n.lhsNonContracting by decide)]
  rfl

theorem rhs0 (j : S2048x2048.Idx) (q : dot_S2048x1024_S2048x1024_S2048x2048_1_1_0_0_n_n.contr.Idx) :
    (dot_S2048x1024_S2048x1024_S2048x2048_1_1_0_0_n_n.rhsIdx j q 0).val = (j 1).val := by
  unfold DotDims.rhsIdx
  rw [dif_neg (show ¬(0 : Fin S2048x1024.rank) ∈ dot_S2048x1024_S2048x1024_S2048x2048_1_1_0_0_n_n.rhsBatch by decide),
    dif_pos (show (0 : Fin S2048x1024.rank) ∈ dot_S2048x1024_S2048x1024_S2048x2048_1_1_0_0_n_n.rhsNonContracting by decide)]
  rfl

/-- The accumulate payload at entry (p, q). -/
theorem pay2_apply (acc : Vec Ideal S2048x2048 .f32) (x0 x1 : Vec Ideal S2048x1024 .bf16) (p q : Fin 2048) :
    k0_pay2 (F := Ideal) acc x0 x1 (ix2 p q) = acc (ix2 p q) + ∑ k : Fin 1024, x0 (ix2 p k) * x1 (ix2 q k) := by
  unfold k0_pay2
  simp only [shapeCast_self]
  rw [addf_apply]
  simp only [matmul]
  rw [Ideal.matmul_constant_zero_apply]
  exact congrArg (acc (ix2 p q) + ·)
    (Cert.ProductRowsAt.product_sum_eq dot_S2048x1024_S2048x1024_S2048x2048_1_1_0_0_n_n rfl rfl rfl rfl lhs0 rhs0 x0 x1 (ix2 p q))

/-- The bias payload at entry (p, q). -/
theorem pay3_apply (a : Vec Ideal S2048x2048 .f32) (x2 : Vec Ideal S1x2048 .f32) (p q : Fin 2048) :
    k0_pay3 (F := Ideal) a x2 (ix2 p q) = a (ix2 p q) + x2 (ix2 0 q) := by
  unfold k0_pay3
  simp only [shapeCast_self]
  rw [addf_apply]
  refine congrArg (a (ix2 p q) + ·) ?_
  exact broadcastTo_apply x2 broadcasts_S1x2048_S2048x2048 (ix2 p q) (ix2 0 q) (fun a => match a with
    | ⟨0, _⟩ => by show (0 : Nat) = if (1 : Nat) = 1 then 0 else _; rw [if_pos rfl]
    | ⟨1, _⟩ => by show q.val = if (2048 : Nat) = 1 then 0 else q.val; rw [if_neg (by decide)])

/-- A whole sweep at entry (p, q): the four products of row p of each first-operand block with row q of each
    second-operand block, added from zero in step order, and then the bias row's entry q. -/
theorem sweep_apply (x00 x01 x02 x03 x10 x11 x12 x13 : Vec Ideal S2048x1024 .bf16) (x2 : Vec Ideal S1x2048 .f32) (p q : Fin 2048) :
    k0_pay3 (F := Ideal) (k0_pay2 (k0_pay2 (k0_pay2 (k0_pay2 (k0_pay1 (F := Ideal)) x00 x10) x01 x11) x02 x12) x03 x13) x2 (ix2 p q)
      = ((((0 + ∑ k : Fin 1024, x00 (ix2 p k) * x10 (ix2 q k))
          + ∑ k : Fin 1024, x01 (ix2 p k) * x11 (ix2 q k))
          + ∑ k : Fin 1024, x02 (ix2 p k) * x12 (ix2 q k))
          + ∑ k : Fin 1024, x03 (ix2 p k) * x13 (ix2 q k))
        + x2 (ix2 0 q) := by
  rw [pay3_apply, pay2_apply, pay2_apply, pay2_apply, pay2_apply, pay1_apply]

end Cert.KernelIdeal.Payload

end
-- ==== Proof.Blocks.lean ====
/-
  From blocks to the array.

  The region's output [16384, 4096] is tiled by 8 × 2 blocks of 2048 × 2048. Grid point t = 8·i + 4·j + k works on output
  block (i, j) with contraction block k; the block is written back once, after k = 3. What is written there is, entry by
  entry, row 2048·i + p of the input against row 2048·j + q of the folded weight — each block read of the operands is
  the array read at block index × block size + the coordinate inside the block — contracted in four blocks of 1024 added
  from zero, plus the bias row's entry. Every entry of the output lies in exactly such a block, so the whole output
  array ends as one function of the three arrays the region reads.
-/
import proofs.«160215_j13881334300847_2_alg».proof.Proof.Gen.KernelIdeal.Frame
import Idealize.ShloMosaic.Lib.Pipeline.Value
import Idealize.ShloMosaic.Lib.Tactic
import proofs.«160215_j13881334300847_2_alg».proof.Proof.Chain
import proofs.«160215_j13881334300847_2_alg».proof.Proof.Payload
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen

open Idealize.ShloMosaic.ValueIdx

variable (m : (ℓ : Loc nD τ sig) → Buf (Elt Ideal) ℓ)

/-- The block index maps in closed form, decided over the 64 grid points: point t = 8·i + 4·j + k fetches block (i, k) of
    the input, block (j, k) of the folded weight, block (0, j) of the bias row, and owns block (i, j) of the output. -/
theorem idx_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- Entry (R, O) of the region's output as a function of the three arrays the region reads: row R of the input against row
    O of the folded weight, contracted in four blocks of 1024 added from zero, then the bias row's entry O. -/
def regionEntry (X : FVec Ideal S16384x4096 .bf16) (We : FVec Ideal S4096x4096 .bf16) (Bi : FVec Ideal S1x4096 .f32)
    (R : Fin 16384) (O : Fin 4096) : EReal :=
  ((((0 + ∑ k : Fin 1024, X (ix2 R ⟨k.val, by omega⟩) * We (ix2 O ⟨k.val, by omega⟩))
      + ∑ k : Fin 1024, X (ix2 R ⟨1024 + k.val, by omega⟩) * We (ix2 O ⟨1024 + k.val, by omega⟩))
      + ∑ k : Fin 1024, X (ix2 R ⟨2048 + k.val, by omega⟩) * We (ix2 O ⟨2048 + k.val, by omega⟩))
      + ∑ k : Fin 1024, X (ix2 R ⟨3072 + k.val, by omega⟩) * We (ix2 O ⟨3072 + k.val, by omega⟩))
    + Bi (ix2 0 O)

/-- The region's output array. -/
def regionOut (X : FVec Ideal S16384x4096 .bf16) (We : FVec Ideal S4096x4096 .bf16) (Bi : FVec Ideal S1x4096 .f32) :
    FVec Ideal S16384x4096 .f32 :=
  fun i => regionEntry X We Bi ⟨(i 0).val, (i 0).isLt⟩ ⟨(i 1).val, (i 1).isLt⟩

/-- It depends on an index through its two coordinates only. -/
theorem regionOut_apply (X : FVec Ideal S16384x4096 .bf16) (We : FVec Ideal S4096x4096 .bf16) (Bi : FVec Ideal S1x4096 .f32)
    (i : S16384x4096.Idx) (R : Fin 16384) (O : Fin 4096) (hR : (i 0).val = R.val) (hO : (i 1).val = O.val) :
    regionOut X We Bi i = regionEntry X We Bi R O := by
  unfold regionOut
  exact congrArg₂ (regionEntry X We Bi) (Fin.ext hR) (Fin.ext hO)

/-- Entry (p, k) of the input's block at point t is entry (2048·(t / 8) + p, 1024·(t mod 4) + k) of the input. -/
theorem blk0_apply (c : Dev nD) (t : Fin cfg0.N) (p : Fin 2048) (k : Fin 1024) (R : Fin 16384) (D : Fin 4096)
    (hR : R.val = 2048 * (t.val / 8) + p.val) (hD : D.val = 1024 * (t.val % 4) + k.val) :
    (iblk m c 0 t : Vec Ideal S2048x1024 .bf16) (ix2 p k) = (V m c main_v6 : FVec Ideal S16384x4096 .bf16) (ix2 R D) := by
  obtain ⟨e0, e1, -⟩ := idx_facts t
  unfold iblk
  rw [View.read_apply]
  show V m c main_v6 _ = V m c main_v6 _
  refine congrArg (V m c main_v6) (funext fun a => Fin.ext ?_)
  match a with
  | ⟨0, _⟩ => show win0_0.index t (0 : Fin 2) * 2048 + 1 * p.val = R.val; rw [e0, hR]; omega
  | ⟨1, _⟩ => show win0_0.index t (1 : Fin 2) * 1024 + 1 * k.val = D.val; rw [e1, hD]; omega

/-- Entry (q, k) of the folded weight's block at point t is entry (2048·(t / 4 mod 2) + q, 1024·(t mod 4) + k) of it. -/
theorem blk1_apply (c : Dev nD) (t : Fin cfg0.N) (q : Fin 2048) (k : Fin 1024) (O : Fin 4096) (D : Fin 4096)
    (hO : O.val = 2048 * (t.val / 4 % 2) + q.val) (hD : D.val = 1024 * (t.val % 4) + k.val) :
    (iblk m c 1 t : Vec Ideal S2048x1024 .bf16) (ix2 q k) = (V m c main_v4 : FVec Ideal S4096x4096 .bf16) (ix2 O D) := by
  obtain ⟨-, -, e2, e3, -⟩ := idx_facts t
  unfold iblk
  rw [View.read_apply]
  show V m c main_v4 _ = V m c main_v4 _
  refine congrArg (V m c main_v4) (funext fun a => Fin.ext ?_)
  match a with
  | ⟨0, _⟩ => show win0_1.index t (0 : Fin 2) * 2048 + 1 * q.val = O.val; rw [e2, hO]; omega
  | ⟨1, _⟩ => show win0_1.index t (1 : Fin 2) * 1024 + 1 * k.val = D.val; rw [e3, hD]; omega

/-- Entry (0, q) of the bias row's block at point t is entry (0, 2048·(t / 4 mod 2) + q) of the bias row. -/
theorem blk2_apply (c : Dev nD) (t : Fin cfg0.N) (q : Fin 2048) (O : Fin 4096)
    (hO : O.val = 2048 * (t.val / 4 % 2) + q.val) :
    (iblk m c 2 t : Vec Ideal S1x2048 .f32) (ix2 0 q) = (V m c main_v7 : FVec Ideal S1x4096 .f32) (ix2 0 O) := by
  obtain ⟨-, -, -, -, e4, e5, -⟩ := idx_facts t
  unfold iblk
  rw [View.read_apply]
  show V m c main_v7 _ = V m c main_v7 _
  refine congrArg (V m c main_v7) (funext fun a => Fin.ext ?_)
  match a with
  | ⟨0, _⟩ => show win0_2.index t (0 : Fin 2) * 1 + 1 * 0 = 0; rw [e4]
  | ⟨1, _⟩ => show win0_2.index t (1 : Fin 2) * 2048 + 1 * q.val = O.val; rw [e5, hO]; omega

/-- WHAT A WRITE-BACK WRITES. The output block is written back after the last step of each sweep, and what is written
    is that block of the region's output function of the three arrays the region reads. -/
theorem flushed_eq (c : Dev nD) (t : Fin cfg0.N) (hf : (cfg0.win 3).flush t = true) :
    (dats m 0 c).flushed 3 t
      = ((cfg0.win 3).blk t).view.read (Elt Ideal) (regionOut (V m c main_v6) (V m c main_v4) (V m c main_v7)) := by
  have hN : t.val < 64 := lt_of_lt_of_eq t.isLt N_0
  have h3 : t.val % 4 = 3 := (flush0_3 t).mp hf
  have hN' : (64 : ℕ) = cfg0.N := N_0.symm
  have b0 : t.val - 3 < cfg0.N := lt_of_lt_of_eq (by omega : t.val - 3 < 64) hN'
  have b1 : t.val - 3 + 1 < cfg0.N := lt_of_lt_of_eq (by omega : t.val - 3 + 1 < 64) hN'
  have b2 : t.val - 3 + 2 < cfg0.N := lt_of_lt_of_eq (by omega : t.val - 3 + 2 < 64) hN'
  have b3 : t.val - 3 + 3 < cfg0.N := lt_of_lt_of_eq (by omega : t.val - 3 + 3 < 64) hN'
  obtain ⟨-, -, -, -, -, -, e6, e7⟩ := idx_facts t
  show (cfg0.win 3).cut (grid0.coords t) ((dats m 0 c).after 3 t) = _
  rw [after0_3, Chain.outsAt_congr m c (show t.val = t.val - 3 + 3 by omega) t.isLt b3,
    Chain.sweep m c (t.val - 3) b0 b1 b2 b3 (by omega)]
  funext y
  obtain ⟨p, q, rfl⟩ : ∃ (p q : Fin 2048), y = ix2 p q := ⟨y 0, y 1, eq_ix2 y⟩
  change (k0_pay3 (F := Ideal) _ _ : FVec Ideal S2048x2048 .f32) (ix2 p q)
    = regionOut (V m c main_v6) (V m c main_v4) (V m c main_v7) (((cfg0.win 3).blk t).view.emb (ix2 p q))
  have hp : p.val < 2048 := p.isLt
  have hq : q.val < 2048 := q.isLt
  rw [regionOut_apply _ _ _ _ ⟨2048 * (t.val / 8) + p.val, by omega⟩ ⟨2048 * (t.val / 4 % 2) + q.val, by omega⟩
    (by show win0_3.index t (0 : Fin 2) * 2048 + 1 * p.val = 2048 * (t.val / 8) + p.val; rw [e6]; omega)
    (by show win0_3.index t (1 : Fin 2) * 2048 + 1 * q.val = 2048 * (t.val / 4 % 2) + q.val; rw [e7]; omega)]
  refine (Payload.sweep_apply (iblk m c 0 ⟨t.val - 3, b0⟩) (iblk m c 0 ⟨t.val - 3 + 1, b1⟩) (iblk m c 0 ⟨t.val - 3 + 2, b2⟩)
    (iblk m c 0 ⟨t.val - 3 + 3, b3⟩) (iblk m c 1 ⟨t.val - 3, b0⟩) (iblk m c 1 ⟨t.val - 3 + 1, b1⟩) (iblk m c 1 ⟨t.val - 3 + 2, b2⟩)
    (iblk m c 1 ⟨t.val - 3 + 3, b3⟩) (iblk m c 2 ⟨t.val - 3 + 3, b3⟩) p q).trans ?_
  unfold regionEntry
  refine congrArg₂ (· + ·) (congrArg₂ (· + ·) (congrArg₂ (· + ·) (congrArg₂ (· + ·) (congrArg (0 + ·) ?_) ?_) ?_) ?_) ?_
  · exact Finset.sum_congr rfl fun k _ => congrArg₂ (· * ·)
      (blk0_apply m c ⟨t.val - 3, b0⟩ p k _ _ (by dsimp only; omega) (by have := k.isLt; dsimp only; omega))
      (blk1_apply m c ⟨t.val - 3, b0⟩ q k _ _ (by dsimp only; omega) (by have := k.isLt; dsimp only; omega))
  · exact Finset.sum_congr rfl fun k _ => congrArg₂ (· * ·)
      (blk0_apply m c ⟨t.val - 3 + 1, b1⟩ p k _ _ (by dsimp only; omega) (by have := k.isLt; dsimp only; omega))
      (blk1_apply m c ⟨t.val - 3 + 1, b1⟩ q k _ _ (by dsimp only; omega) (by have := k.isLt; dsimp only; omega))
  · exact Finset.sum_congr rfl fun k _ => congrArg₂ (· * ·)
      (blk0_apply m c ⟨t.val - 3 + 2, b2⟩ p k _ _ (by dsimp only; omega) (by have := k.isLt; dsimp only; omega))
      (blk1_apply m c ⟨t.val - 3 + 2, b2⟩ q k _ _ (by dsimp only; omega) (by have := k.isLt; dsimp only; omega))
  · exact Finset.sum_congr rfl fun k _ => congrArg₂ (· * ·)
      (blk0_apply m c ⟨t.val - 3 + 3, b3⟩ p k _ _ (by dsimp only; omega) (by have := k.isLt; dsimp only; omega))
      (blk1_apply m c ⟨t.val - 3 + 3, b3⟩ q k _ _ (by dsimp only; omega) (by have := k.isLt; dsimp only; omega))
  · exact blk2_apply m c ⟨t.val - 3 + 3, b3⟩ q _ (by dsimp only; omega)

/-- An index of the output array is in point t's block iff each coordinate is in the block's range on its axis. -/
theorem mem_blk (t : Fin cfg0.N) (i : S16384x4096.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v8).slice (win0_3.rect t)).set ↔ _
  rw [View.set_slice_whole, Rect.mem_set_unit]
  exact Iff.rfl

/-- THE COVER. Entry (R, O) of the output lies in the block written back at the last step of the sweep for the block row
    R / 2048 and block column O / 2048: the 8 × 2 output blocks tile the array. -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  obtain ⟨t, ht⟩ : ∃ t : Fin cfg0.N, t.val = 8 * ((i 0).val / 2048) + 4 * ((i 1).val / 2048) + 3 :=
    ⟨⟨8 * ((i 0).val / 2048) + 4 * ((i 1).val / 2048) + 3, lt_of_lt_of_eq (by omega) N_0.symm⟩, rfl⟩
  refine ⟨t, (flush0_3 t).mpr (by omega), ?_⟩
  rw [mem_blk]
  obtain ⟨-, -, -, -, -, -, e6, e7⟩ := idx_facts t
  intro a
  match a with
  | ⟨0, _⟩ =>
    show win0_3.index t (0 : Fin 2) * 2048 ≤ (i 0).val ∧ (i 0).val < win0_3.index t (0 : Fin 2) * 2048 + 2048
    rw [e6]; omega
  | ⟨1, _⟩ =>
    show win0_3.index t (1 : Fin 2) * 2048 ≤ (i 1).val ∧ (i 1).val < win0_3.index t (1 : Fin 2) * 2048 + 2048
    rw [e7]; omega

/-- THE OUTPUT ARRAY after the region is the region's output function of the three arrays it reads. -/
theorem final (c : Dev nD) :
    (dats m 0 c).arrAt 3 cfg0.N = regionOut (V m c main_v6) (V m c main_v4) (V m c main_v7) :=
  (dats m 0 c).arrAt_eq_of_cover 3 _ (flushed_eq m c) cover

end Cert.KernelIdeal.Blocks

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.Algebra.lean ====
/-
  The law that joins the two programs, at one entry of the result.

  Fix a row  x  of the input (4096 numbers), the matching row  w  of the base weight, the low-rank factors
  a (16 × 4096)  and the row  b  (16 numbers) of the other factor, a bias number and the scale  s.
    The kernel folds the low-rank branch into the weight first and contracts once, in four blocks of 1024 added from
  zero:        Σ_d x_d · (w_d + s · Σ_r b_r · a_{r d})  + bias.
    The reference contracts three times:
               (Σ_d x_d · w_d + bias) + (Σ_r (Σ_d x_d · a_{r d}) · b_r) · s.
  Over the real numbers these agree: multiplication distributes over the inner sum and the two finite sums over d and r
  exchange. On the extended reals distributivity fails at the infinities, so the law is stated for entries that are real
  numbers. Regrouping a sum of 4096 terms into four blocks of 1024 needs no such hypothesis.
-/
import proofs.«160215_j13881334300847_2_alg».proof.Proof.LibReal
import proofs.«160215_j13881334300847_2_alg».proof.Proof.LibBlockSum
import Mathlib.Data.EReal.Basic
import Mathlib.Data.EReal.Operations
import Mathlib.Algebra.BigOperators.Fin
import Mathlib.Algebra.BigOperators.Ring.Finset
import Mathlib.Tactic.Ring

open scoped BigOperators

noncomputable section

namespace Cert.LoraAlgebra

/-- The folded weight at one input coordinate. -/
def foldedWeight {D R : ℕ} (w : Fin D → EReal) (a : Fin R → Fin D → EReal) (b : Fin R → EReal) (s : EReal) (d : Fin D) : EReal :=
  w d + s * ∑ r : Fin R, b r * a r d

/-- The kernel's entry: the contraction with the folded weight in four blocks of 1024 added from zero, then the bias. -/
def kernelEntry (x w : Fin 4096 → EReal) (a : Fin 16 → Fin 4096 → EReal) (b : Fin 16 → EReal) (bias s : EReal) : EReal :=
  ((((0 + ∑ k : Fin 1024, x ⟨k.val, by omega⟩ * foldedWeight w a b s ⟨k.val, by omega⟩)
      + ∑ k : Fin 1024, x ⟨1024 + k.val, by omega⟩ * foldedWeight w a b s ⟨1024 + k.val, by omega⟩)
      + ∑ k : Fin 1024, x ⟨2048 + k.val, by omega⟩ * foldedWeight w a b s ⟨2048 + k.val, by omega⟩)
      + ∑ k : Fin 1024, x ⟨3072 + k.val, by omega⟩ * foldedWeight w a b s ⟨3072 + k.val, by omega⟩)
    + bias

/-- The reference's entry: the base product and the bias, plus the scaled low-rank branch. -/
def referenceEntry {D R : ℕ} (x w : Fin D → EReal) (a : Fin R → Fin D → EReal) (b : Fin R → EReal) (bias s : EReal) : EReal :=
  (∑ d : Fin D, x d * w d + bias) + (∑ r : Fin R, (∑ d : Fin D, x d * a r d) * b r) * s

/-- The four blocks are the whole contraction. -/
theorem kernelEntry_eq_sum (x w : Fin 4096 → EReal) (a : Fin 16 → Fin 4096 → EReal) (b : Fin 16 → EReal) (bias s : EReal) :
    kernelEntry x w a b bias s = ∑ d : Fin 4096, x d * foldedWeight w a b s d + bias := by
  unfold kernelEntry
  rw [LibBlockSum.sum_four_1024 fun d : Fin 4096 => x d * foldedWeight w a b s d]

/-- The law over the real numbers. -/
theorem fold_real {D R : ℕ} (x w : Fin D → ℝ) (a : Fin R → Fin D → ℝ) (b : Fin R → ℝ) (bias s : ℝ) :
    ∑ d : Fin D, x d * (w d + s * ∑ r : Fin R, b r * a r d) + bias
      = (∑ d : Fin D, x d * w d + bias) + (∑ r : Fin R, (∑ d : Fin D, x d * a r d) * b r) * s := by
  have h1 : ∑ d : Fin D, x d * (w d + s * ∑ r : Fin R, b r * a r d)
      = ∑ d : Fin D, x d * w d + s * ∑ d : Fin D, ∑ r : Fin R, x d * a r d * b r := by
    rw [Finset.mul_sum, ← Finset.sum_add_distrib]
    refine Finset.sum_congr rfl fun d _ => ?_
    rw [Finset.mul_sum, Finset.mul_sum, mul_add, Finset.mul_sum]
    refine congrArg (x d * w d + ·) (Finset.sum_congr rfl fun r _ => ?_)
    ring
  have h2 : ∑ r : Fin R, (∑ d : Fin D, x d * a r d) * b r = ∑ d : Fin D, ∑ r : Fin R, x d * a r d * b r := by
    rw [Finset.sum_comm]
    exact Finset.sum_congr rfl fun r _ => Finset.sum_mul _ _ _
  rw [h1, h2]
  ring

/-- The law on the extended reals, for entries that are real numbers. -/
theorem fold_coe {D R : ℕ} (x w : Fin D → ℝ) (a : Fin R → Fin D → ℝ) (b : Fin R → ℝ) (bias s : ℝ) :
    ∑ d : Fin D, (x d : EReal) * foldedWeight (fun d => (w d : EReal)) (fun r d => (a r d : EReal)) (fun r => (b r : EReal)) (s : EReal) d
        + (bias : EReal)
      = referenceEntry (fun d => (x d : EReal)) (fun d => (w d : EReal)) (fun r d => (a r d : EReal)) (fun r => (b r : EReal))
          (bias : EReal) (s : EReal) := by
  have h := congrArg (fun r : ℝ => (r : EReal)) (fold_real x w a b bias s)
  simp only [EReal.coe_add, EReal.coe_mul, LibReal.coe_sum] at h
  exact h

/-- THE LAW. When every entry involved is a real number the kernel's entry is the reference's. -/
theorem kernelEntry_eq_referenceEntry (x w : Fin 4096 → EReal) (a : Fin 16 → Fin 4096 → EReal) (b : Fin 16 → EReal)
    (bias s : EReal) (hx : ∀ d, ∃ r : ℝ, x d = (r : EReal)) (hw : ∀ d, ∃ r : ℝ, w d = (r : EReal))
    (ha : ∀ r d, ∃ v : ℝ, a r d = (v : EReal)) (hb : ∀ r, ∃ v : ℝ, b r = (v : EReal))
    (hbias : ∃ v : ℝ, bias = (v : EReal)) (hs : ∃ v : ℝ, s = (v : EReal)) :
    kernelEntry x w a b bias s = referenceEntry x w a b bias s := by
  rw [kernelEntry_eq_sum]
  choose x' hx' using hx
  choose w' hw' using hw
  choose a' ha' using ha
  choose b' hb' using hb
  obtain ⟨bias', rfl⟩ := hbias
  obtain ⟨s', rfl⟩ := hs
  obtain rfl : x = fun d => (x' d : EReal) := funext hx'
  obtain rfl : w = fun d => (w' d : EReal) := funext hw'
  obtain rfl : a = fun r d => (a' r d : EReal) := funext fun r => funext fun d => ha' r d
  obtain rfl : b = fun r => (b' r : EReal) := funext hb'
  exact fold_coe x' w' a' b' bias' s'

end Cert.LoraAlgebra

end
-- ==== Proof.LibSmallF32.lean ====
import Idealize.ShloMosaic.PureOps.Ideal

/-!
# The single-precision patterns of the integers 1 … 9

At the exact instance a float literal denotes the dyadic rational its IEEE pattern spells. For the nine small
integers that multiply an angle (`m·φ`, `m = 1 … 9`) that rational is the integer itself.
-/

noncomputable section

namespace Cert.LibSmallF32

open Idealize.ShloMosaic

theorem f32_1 : Ideal.ofBits .f32 0x3F800000#32 = ((1 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_4 : Ideal.ofBits .f32 0x40800000#32 = ((4 : ℝ) : EReal) := by
  simp [Ideal.ofBits, Ideal.ieee, -EReal.coe_mul]; norm_num
theorem f32_5 : Ideal.ofBits .f32 0x40A00000#32 = ((5 : ℝ) : EReal) := by
  simp [Ideal.ofBits, Ideal.ieee, -EReal.coe_mul]; norm_num
theorem f32_6 : Ideal.ofBits .f32 0x40C00000#32 = ((6 : ℝ) : EReal) := by
  simp [Ideal.ofBits, Ideal.ieee, -EReal.coe_mul]; norm_num
theorem f32_7 : Ideal.ofBits .f32 0x40E00000#32 = ((7 : ℝ) : EReal) := by
  simp [Ideal.ofBits, Ideal.ieee, -EReal.coe_mul]; norm_num
theorem f32_8 : Ideal.ofBits .f32 0x41000000#32 = ((8 : ℝ) : EReal) := by
  simp [Ideal.ofBits, Ideal.ieee, -EReal.coe_mul]; norm_num
theorem f32_9 : Ideal.ofBits .f32 0x41100000#32 = ((9 : ℝ) : EReal) := by
  simp [Ideal.ofBits, Ideal.ieee, -EReal.coe_mul]; norm_num

end Cert.LibSmallF32

end
-- ==== Proof.Spec.lean ====
/-
  The two results as functions of the five inputs, entry by entry.

  Result entry (β, σ, o) depends on row (β, σ) of the input x, row o of the base weight W, entry o of the bias, all of the
  low-rank factor A and row o of the other factor B. The kernel's entry and the reference's entry are the two forms of
  the law of the algebra module at these rows, with the scale 2 written as its single-precision pattern; under the
  precondition (every input entry a real number) they are equal.
-/
import proofs.«160215_j13881334300847_2_alg».proof.Proof.Algebra
import proofs.«160215_j13881334300847_2_alg».proof.Proof.LibSmallF32
import Idealize.ShloMosaic.Lib.ValueIdx
import Idealize.ShloMosaic.PureOps.Ideal

noncomputable section

open Idealize.ShloMosaic Idealize.ShloMosaic.ValueIdx

namespace Cert.LoraSpec

/-- The scale lora_alpha / r = 2 as the programs spell it. -/
abbrev scale : EReal := Ideal.ofBits .f32 0x40000000#32

theorem scale_real : ∃ v : ℝ, scale = (v : EReal) := ⟨2, Cert.LibSmallF32.f32_2⟩

variable (x : (⟨3, ![4, 4096, 4096]⟩ : Shape).Idx → EReal) (W : (⟨2, ![4096, 4096]⟩ : Shape).Idx → EReal)
  (b : (⟨1, ![4096]⟩ : Shape).Idx → EReal) (A : (⟨2, ![16, 4096]⟩ : Shape).Idx → EReal)
  (B : (⟨2, ![4096, 16]⟩ : Shape).Idx → EReal)

/-- Row (β, σ) of the input. -/
abbrev xRow (β : Fin 4) (σ : Fin 4096) : Fin 4096 → EReal := fun d => x (ix3 β σ d)
/-- Row o of the base weight. -/
abbrev wRow (o : Fin 4096) : Fin 4096 → EReal := fun d => W (ix2 o d)
/-- The low-rank factor A by rows. -/
abbrev aRows : Fin 16 → Fin 4096 → EReal := fun r d => A (ix2 r d)
/-- Row o of the low-rank factor B. -/
abbrev bRow (o : Fin 4096) : Fin 16 → EReal := fun r => B (ix2 o r)

/-- The kernel's result at (β, σ, o). -/
def kernelAt (β : Fin 4) (σ : Fin 4096) (o : Fin 4096) : EReal :=
  Cert.LoraAlgebra.kernelEntry (xRow x β σ) (wRow W o) (aRows A) (bRow B o) (b (ix1 o)) scale

/-- The reference's result at (β, σ, o). -/
def referenceAt (β : Fin 4) (σ : Fin 4096) (o : Fin 4096) : EReal :=
  Cert.LoraAlgebra.referenceEntry (xRow x β σ) (wRow W o) (aRows A) (bRow B o) (b (ix1 o)) scale

/-- The kernel's result array. -/
def kernelValue : (⟨3, ![4, 4096, 4096]⟩ : Shape).Idx → EReal := fun i =>
  kernelAt x W b A B ⟨(i 0).val, (i 0).isLt⟩ ⟨(i 1).val, (i 1).isLt⟩ ⟨(i 2).val, (i 2).isLt⟩

/-- The reference's result array. -/
def referenceValue : (⟨3, ![4, 4096, 4096]⟩ : Shape).Idx → EReal := fun i =>
  referenceAt x W b A B ⟨(i 0).val, (i 0).isLt⟩ ⟨(i 1).val, (i 1).isLt⟩ ⟨(i 2).val, (i 2).isLt⟩

/-- THE TWO RESULTS AGREE when every entry of every input is a real number. -/
theorem kernelValue_eq_referenceValue (hx : ∀ i, ∃ r : ℝ, x i = (r : EReal)) (hW : ∀ i, ∃ r : ℝ, W i = (r : EReal))
    (hb : ∀ i, ∃ r : ℝ, b i = (r : EReal)) (hA : ∀ i, ∃ r : ℝ, A i = (r : EReal)) (hB : ∀ i, ∃ r : ℝ, B i = (r : EReal)) :
    kernelValue x W b A B = referenceValue x W b A B :=
  funext fun i => Cert.LoraAlgebra.kernelEntry_eq_referenceEntry _ _ _ _ _ _ (fun d => hx _) (fun d => hW _)
    (fun r d => hA _) (fun r => hB _) (hb _) scale_real

end Cert.LoraSpec

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.HostSide.lean ====
/-
  The host operations around the region, and the kernel's result.

  Before the region the program recasts the input to [16384, 4096], folds the low-rank branch into the weight
  (W + 2 · (B · A), a product contracting the 16-wide axis) and recasts the bias to a row; a change of float format is the
  identity on the extended reals. After the region it recasts the output array to [4, 4096, 4096]. A recast keeps the
  row-major position, so entry (β, σ, o) of the result is entry (4096·β + σ, o) of the region's output, and that is the
  specified kernel entry of the five inputs.
-/
import proofs.«160215_j13881334300847_2_alg».proof.Proof.Gen.KernelIdeal.Frame
import Idealize.ShloMosaic.Lib.Pipeline.Value
import Idealize.ShloMosaic.Lib.Tactic
import proofs.«160215_j13881334300847_2_alg».proof.Proof.Blocks
import proofs.«160215_j13881334300847_2_alg».proof.Proof.Spec
import proofs.«160215_j13881334300847_2_alg».proof.Proof.LibProductAt
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.HostSide

open Cert.KernelIdeal Cert.KernelIdeal.Gen

open Idealize.ShloMosaic.ValueIdx Idealize.ShloMosaic.StableHlo

variable (m : (ℓ : Loc nD τ sig) → Buf (Elt Ideal) ℓ) (ρ : Dev nD → PrngReg)

/-- The five inputs as the program is launched with them. -/
abbrev argX (c : Dev nD) : FVec Ideal S4x4096x4096 .f32 := m ((c : Thread nD τ).loc main_arg0)
abbrev argW (c : Dev nD) : FVec Ideal S4096x4096 .f32 := m ((c : Thread nD τ).loc main_arg1)
abbrev argb (c : Dev nD) : FVec Ideal S4096 .f32 := m ((c : Thread nD τ).loc main_arg2)
abbrev argA (c : Dev nD) : FVec Ideal S16x4096 .f32 := m ((c : Thread nD τ).loc main_arg3)
abbrev argB (c : Dev nD) : FVec Ideal S4096x16 .f32 := m ((c : Thread nD τ).loc main_arg4)

/-- The region's first operand: the input recast to [16384, 4096] (the change of float format is the identity). -/
theorem V_v6 (c : Dev nD) :
    (V m c main_v6 : FVec Ideal S16384x4096 .bf16)
      = (truncf .bf16 (shapeCast S16384x4096 (argX m c) shapeCasts_S4x4096x4096_S16384x4096) bitsLt_bf16_f32
          : FVec Ideal S16384x4096 .bf16) := by
  show StableHlo.after hostOps0 (fun b => m (c, b)) (Proc.devRef .tc main_v6) = _
  after_results <;> rfl

/-- The region's third operand: the bias recast to a row [1, 4096]. -/
theorem V_v7 (c : Dev nD) :
    (V m c main_v7 : FVec Ideal S1x4096 .f32) = shapeCast S1x4096 (argb m c) shapeCasts_S4096_S1x4096 := by
  show StableHlo.after hostOps0 (fun b => m (c, b)) (Proc.devRef .tc main_v7) = _
  after_results <;> rfl

/-- The region's second operand: the folded weight  W + 2 · (B · A). -/
theorem V_v4 (c : Dev nD) :
    (V m c main_v4 : FVec Ideal S4096x4096 .bf16)
      = (truncf .bf16 (addf (argW m c)
          (mulf (broadcastInDim S4096x4096 ![] bcast_S_S4096x4096 (constant (F := Ideal) S_ .f32 0x40000000#32))
            (Host.dotGeneral (φ₁ := .f32) (φ₂ := .f32) dot_S4096x16_S16x4096_S4096x4096_1_0_0_1_n_n none
              (argB m c) (argA m c)))) bitsLt_bf16_f32 : FVec Ideal S4096x4096 .bf16) := by
  show StableHlo.after hostOps0 (fun b => m (c, b)) (Proc.devRef .tc main_v4) = _
  after_results <;> rfl

/-- The program's result: the region's output array recast to [4, 4096, 4096]. -/
theorem tail_v9 (c : Dev nD) :
    (Pipeline.afterTail₀ cfgs (dats m) 0 (V0 m) [hostOps1] c main_v9 : FVec Ideal S4x4096x4096 .f32)
      = shapeCast S4x4096x4096 ((dats m 0 c).arrAt 3 cfg0.N : FVec Ideal S16384x4096 .f32) shapeCasts_S16384x4096_S4x4096x4096 := by
  have hw := Pipeline.withArrays_arr spec0 launch0.win.arr_inj c (V0 m c) (fun w => (dats m 0 c).arrAt w cfg0.N) 3
  unfold Pipeline.afterTail₀
  show StableHlo.after hostOps1 _ (Proc.devRef .tc main_v9) = _
  after_results
  funext i
  show shapeCast S4x4096x4096 (Pipeline.withArrays spec0 c (V0 m c) (fun w => (dats m 0 c).arrAt w cfg0.N)
    (Proc.devRef .tc (Pipeline.arrRef spec0 3))) shapeCasts_S16384x4096_S4x4096x4096 i = _
  rw [hw]

/-- Entry (4096·β + σ, d) of the recast input is entry (β, σ, d) of the input: the same row-major position. -/
theorem input_apply (c : Dev nD) (R : Fin 16384) (D : Fin 4096) (β : Fin 4) (σ : Fin 4096) (hR : R.val = 4096 * β.val + σ.val) :
    (V m c main_v6 : FVec Ideal S16384x4096 .bf16) (ix2 R D) = argX m c (ix3 β σ D) := by
  rw [V_v6]
  show shapeCast S16384x4096 (argX m c) shapeCasts_S4x4096x4096_S16384x4096 (ix2 R D) = _
  exact shapeCast_apply _ _ _ _ (by
    rw [Shape.rowMajor_val_three, Shape.rowMajor_val_two]
    show (β.val * 4096 + σ.val) * 4096 + D.val = R.val * 4096 + D.val
    rw [hR]; omega)

/-- Entry (0, o) of the bias row is entry o of the bias. -/
theorem bias_apply (c : Dev nD) (O : Fin 4096) :
    (V m c main_v7 : FVec Ideal S1x4096 .f32) (ix2 0 O) = argb m c (ix1 O) := by
  rw [V_v7]
  exact shapeCast_apply _ _ _ _ (by
    rw [Shape.rowMajor_val_one, Shape.rowMajor_val_two]
    show O.val = 0 * 4096 + O.val
    omega)

theorem fold_lhs0 (j : S4096x4096.Idx) (q : dot_S4096x16_S16x4096_S4096x4096_1_0_0_1_n_n.contr.Idx) :
    (dot_S4096x16_S16x4096_S4096x4096_1_0_0_1_n_n.lhsIdx j q 0).val = (j 0).val := by
  unfold DotDims.lhsIdx
  rw [dif_neg (show ¬(0 : Fin S4096x16.rank) ∈ dot_S4096x16_S16x4096_S4096x4096_1_0_0_1_n_n.lhsBatch by decide),
    dif_pos (show (0 : Fin S4096x16.rank) ∈ dot_S4096x16_S16x4096_S4096x4096_1_0_0_1_n_n.lhsNonContracting by decide)]
  rfl

theorem fold_rhs1 (j : S4096x4096.Idx) (q : dot_S4096x16_S16x4096_S4096x4096_1_0_0_1_n_n.contr.Idx) :
    (dot_S4096x16_S16x4096_S4096x4096_1_0_0_1_n_n.rhsIdx j q 1).val = (j 1).val := by
  unfold DotDims.rhsIdx
  rw [dif_neg (show ¬(1 : Fin S16x4096.rank) ∈ dot_S4096x16_S16x4096_S4096x4096_1_0_0_1_n_n.rhsBatch by decide),
    dif_pos (show (1 : Fin S16x4096.rank) ∈ dot_S4096x16_S16x4096_S4096x4096_1_0_0_1_n_n.rhsNonContracting by decide)]
  rfl

/-- The two spellings of a two-axis index from its coordinates. -/
theorem at2_eq_ix2 {n0 n1 : Nat} (p : Fin n0) (q : Fin n1) : Cert.ProductAt.at2 p.val p.isLt q.val q.isLt = ix2 p q :=
  funext fun a => match a with | ⟨0, _⟩ => rfl | ⟨1, _⟩ => rfl

/-- Entry (o, d) of the folded weight:  W (o, d) + 2 · Σ_r B (o, r) · A (r, d). -/
theorem weight_apply (c : Dev nD) (O D : Fin 4096) :
    (V m c main_v4 : FVec Ideal S4096x4096 .bf16) (ix2 O D)
      = argW m c (ix2 O D) + Cert.LoraSpec.scale * ∑ r : Fin 16, argB m c (ix2 O r) * argA m c (ix2 r D) := by
  rw [V_v4]
  show (addf (argW m c) (mulf (broadcastInDim S4096x4096 ![] bcast_S_S4096x4096 (constant (F := Ideal) S_ .f32 0x40000000#32))
    (Host.dotGeneral (φ₁ := .f32) (φ₂ := .f32) dot_S4096x16_S16x4096_S4096x4096_1_0_0_1_n_n none (argB m c) (argA m c)))
      : FVec Ideal S4096x4096 .f32) (ix2 O D) = _
  rw [addf_apply, mulf_apply]
  refine congrArg₂ (· + ·) rfl (congrArg₂ (· * ·) ?_ ?_)
  · exact broadcastInDim_apply _ bcast_S_S4096x4096 (constant (F := Ideal) S_ .f32 0x40000000#32) (ix2 O D) ix0 (fun a => a.elim0)
  · simp only [Host.dotGeneral]
    rw [Ideal.dotGeneral_apply]
    refine (Cert.ProductAt.product_sum_eq dot_S4096x16_S16x4096_S4096x4096_1_0_0_1_n_n rfl rfl rfl rfl fold_lhs0 fold_rhs1
      (argB m c) (argA m c) (ix2 O D)).trans ?_
    exact Finset.sum_congr rfl fun r _ => congrArg₂ (· * ·) (congrArg (argB m c) (at2_eq_ix2 O r)) (congrArg (argA m c) (at2_eq_ix2 r D))

/-- Entry (4096·β + σ, o) of the region's output is the kernel's specified entry (β, σ, o) of the five inputs. -/
theorem region_entry (c : Dev nD) (R : Fin 16384) (O : Fin 4096) (β : Fin 4) (σ : Fin 4096) (hR : R.val = 4096 * β.val + σ.val) :
    Blocks.regionEntry (V m c main_v6) (V m c main_v4) (V m c main_v7) R O
      = Cert.LoraSpec.kernelAt (argX m c) (argW m c) (argb m c) (argA m c) (argB m c) β σ O := by
  unfold Blocks.regionEntry Cert.LoraSpec.kernelAt Cert.LoraAlgebra.kernelEntry Cert.LoraAlgebra.foldedWeight
  simp only [input_apply m c R _ β σ hR, weight_apply m c, bias_apply m c]

/-- THE KERNEL'S RESULT is the specified function of the five inputs. -/
theorem result_eq (c : Dev nD) :
    (Pipeline.afterTail₀ cfgs (dats m) 0 (V0 m) [hostOps1] c main_v9 : FVec Ideal S4x4096x4096 .f32)
      = Cert.LoraSpec.kernelValue (argX m c) (argW m c) (argb m c) (argA m c) (argB m c) := by
  rw [tail_v9, Blocks.final]
  funext i
  have h0 : (i 0).val < 4 := (i 0).isLt
  have h1 : (i 1).val < 4096 := (i 1).isLt
  have h2 : (i 2).val < 4096 := (i 2).isLt
  rw [shapeCast_apply _ shapeCasts_S16384x4096_S4x4096x4096 i
    (ix2 (⟨4096 * (i 0).val + (i 1).val, by omega⟩ : Fin 16384) (⟨(i 2).val, h2⟩ : Fin 4096)) (by
      rw [Shape.rowMajor_val_three, Shape.rowMajor_val_two]
      show (4096 * (i 0).val + (i 1).val) * 4096 + (i 2).val = ((i 0).val * 4096 + (i 1).val) * 4096 + (i 2).val
      omega)]
  rw [Blocks.regionOut_apply _ _ _ _ ⟨4096 * (i 0).val + (i 1).val, by omega⟩ ⟨(i 2).val, h2⟩ rfl rfl]
  exact region_entry m c _ _ ⟨(i 0).val, h0⟩ ⟨(i 1).val, h1⟩ rfl

/-- THE KERNEL'S RUN, READ. Every weakly fair execution terminates with the result at the specified function of the five
    inputs and the inputs unchanged. -/
theorem run : θ_run defs (onTc (τ := τ) (main (F := Ideal))) ⟨m, fun _ => 0, ρ⟩ fun r => ∀ c : Dev nD,
      r.2.mem ((c.tc : Thread nD τ).loc main_v9) = Cert.LoraSpec.kernelValue (argX m c) (argW m c) (argb m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSide

end
-- ==== Proof.RefSide.lean ====
/-
  The reference's result, entry by entry.

  Read one operation at a time, entry (β, σ, o) of the reference's result is
      (Σ_d x (β, σ, d) · W (o, d) + b (o)) + (Σ_r (Σ_d x (β, σ, d) · A (r, d)) · B (o, r)) · 2 :
  each of its three products contracts the last axis of both factors, the bias is repeated along the first two axes, and
  the scale is a repeated constant. That is the specification's reference entry.
-/
import proofs.«160215_j13881334300847_2_alg».proof.Proof.Gen.ReferenceIdeal.Read
import proofs.«160215_j13881334300847_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefSide

open Cert.ReferenceIdeal Cert.ReferenceIdeal.Read

/-- The reference's last stage is the specified reference function of the five inputs. -/
theorem ref_value (x0 : FVec Ideal S4x4096x4096 .f32) (x1 : FVec Ideal S4096x4096 .f32) (x2 : FVec Ideal S4096 .f32)
    (x3 : FVec Ideal S16x4096 .f32) (x4 : FVec Ideal S4096x16 .f32) :
    val_main_v8 (F := Ideal) x0 x1 x2 x3 x4 = Cert.LoraSpec.referenceValue x0 x1 x2 x3 x4 := by
  funext i
  rw [val_main_v8_apply, val_main_v3_apply, val_main_v7_apply, val_main_v0_apply, val_main_v2_apply, val_main_v1_apply,
    val_main_v5_apply, val_main_v6_apply, val_main_cst_apply]
  simp only [val_main_v4_apply]
  have e1 : ∀ k : Fin 4096, lidx_main_v0 i k = ix3 (⟨(i 0).val, (i 0).isLt⟩ : Fin 4) (⟨(i 1).val, (i 1).isLt⟩ : Fin 4096) k :=
    fun k => funext fun a => match a with | ⟨0, _⟩ => rfl | ⟨1, _⟩ => rfl | ⟨2, _⟩ => rfl
  have e2 : ∀ k : Fin 4096, ridx_main_v0 i k = ix2 (⟨(i 2).val, (i 2).isLt⟩ : Fin 4096) k :=
    fun k => funext fun a => match a with | ⟨0, _⟩ => rfl | ⟨1, _⟩ => rfl
  have e3 : idx_main_v1 (idx_main_v2 i) = ix1 (⟨(i 2).val, (i 2).isLt⟩ : Fin 4096) :=
    funext fun a => match a with | ⟨0, _⟩ => rfl
  have e4 : ∀ (r : Fin 16) (k : Fin 4096), lidx_main_v4 (lidx_main_v5 i r) k
      = ix3 (⟨(i 0).val, (i 0).isLt⟩ : Fin 4) (⟨(i 1).val, (i 1).isLt⟩ : Fin 4096) k :=
    fun r k => funext fun a => match a with | ⟨0, _⟩ => rfl | ⟨1, _⟩ => rfl | ⟨2, _⟩ => rfl
  have e5 : ∀ (r : Fin 16) (k : Fin 4096), ridx_main_v4 (lidx_main_v5 i r) k = ix2 r k :=
    fun r k => funext fun a => match a with | ⟨0, _⟩ => rfl | ⟨1, _⟩ => rfl
  have e6 : ∀ r : Fin 16, ridx_main_v5 i r = ix2 (⟨(i 2).val, (i 2).isLt⟩ : Fin 4096) r :=
    fun r => funext fun a => match a with | ⟨0, _⟩ => rfl | ⟨1, _⟩ => rfl
  simp only [e1, e2, e3, e4, e5, e6]
  rfl

end Cert.ReferenceIdeal.RefSide

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.FiniteInputs.lean ====
/-
  The precondition read back: the finiteness test  all(|v| < +∞)  of each of the five inputs, joined by `and` into one
  bit that is 1, says that every entry of every input is a real number.
-/
import proofs.«160215_j13881334300847_2_alg».proof.Pre_finite_inputs
import proofs.«160215_j13881334300847_2_alg».proof.Proof.LibFiniteEntries
import Idealize.ShloMosaic.Lib.ValueIdx
import Idealize.ShloMosaic.Lib.Affine

noncomputable section

open Idealize.ShloMosaic

namespace Cert.FiniteInputs

open Cert.Pre_finite_inputs

variable [Cert.Pre_finite_inputs.Facts]
open Cert.Pre_finite_inputs.Facts

/-- A pointwise `and` of two one-bit arrays, at an index. -/
theorem andi_at (a b : IVec S_ 1) (i : S_.Idx) : andi a b i = IntOp.andi (a i) (b i) := rfl

/-- Under the precondition every entry of every input is a real number. -/
theorem all_real (a0 : FVec Ideal S4x4096x4096 .f32) (a1 : FVec Ideal S4096x4096 .f32) (a2 : FVec Ideal S4096 .f32)
    (a3 : FVec Ideal S16x4096 .f32) (a4 : FVec Ideal S4096x16 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [fn, fn_part1] at e
  rw [andi_at, IntOp.andi_eq_one, andi_at, IntOp.andi_eq_one, andi_at, IntOp.andi_eq_one, andi_at, IntOp.andi_eq_one] at e
  obtain ⟨⟨⟨⟨h0, h1⟩, h2⟩, h3⟩, h4⟩ := e
  exact ⟨Cert.LibFiniteEntries.real_of_all a0 _ _ _ _ _ h0, Cert.LibFiniteEntries.real_of_all a1 _ _ _ _ _ h1,
    Cert.LibFiniteEntries.real_of_all a2 _ _ _ _ _ h2, Cert.LibFiniteEntries.real_of_all a3 _ _ _ _ _ h3,
    Cert.LibFiniteEntries.real_of_all a4 _ _ _ _ _ h4⟩

end Cert.FiniteInputs

end
-- ==== Proof.lean ====
/-
  A LoRA linear layer: the kernel against its reference, over the extended reals.

  Inputs x [4, 4096, 4096], W [4096, 4096], b [4096], A [16, 4096], B [4096, 16]; scale 2.
    The reference computes   y = (x · Wᵀ + b) + ((x · Aᵀ) · Bᵀ) · 2.
    The kernel folds the low-rank branch into the weight on the host,  W' = W + 2 · (B · A),  recasts x to [16384, 4096]
  and runs one blocked product with bias: output blocks 2048 × 2048, the contraction axis cut in four blocks of 1024 swept
  innermost, the output block zeroed at the first step, accumulated at every step, the bias row added at the last; the
  result is recast to [4, 4096, 4096].
    On the extended reals a change of float format is the identity, a product into a zero accumulator is a plain sum, and
  regrouping a finite sum in blocks changes nothing; what joins the two programs is distributivity and the exchange of two
  finite sums,
      Σ_d x_d · (w_d + 2 · Σ_r b_r · a_{r d}) = Σ_d x_d · w_d + (Σ_r (Σ_d x_d · a_{r d}) · b_r) · 2,
  which holds for real entries — so the precondition (every input finite) is used.

  The modules: Pieces (what each control case of the body leaves), Chain (the accumulator after a sweep), Payload (the
  body's arithmetic at an entry), Blocks (from the written-back blocks to the output array), HostSide (the host operations
  around the region, and the kernel's run), RefSide (the reference entry by entry), Algebra and Spec (the law and the two
  results as functions of the inputs), FiniteInputs (the precondition read back).
-/
import proofs.«160215_j13881334300847_2_alg».proof.Defs
import proofs.«160215_j13881334300847_2_alg».proof.Proof.Gen.Kernel
import proofs.«160215_j13881334300847_2_alg».proof.Proof.Gen.Kernel.Frame
import proofs.«160215_j13881334300847_2_alg».proof.Proof.Gen.KernelIdeal
import proofs.«160215_j13881334300847_2_alg».proof.Proof.Gen.KernelIdeal.Frame
import proofs.«160215_j13881334300847_2_alg».proof.Proof.Gen.ReferenceIdeal
import proofs.«160215_j13881334300847_2_alg».proof.Proof.Gen.ReferenceIdeal.Run
import proofs.«160215_j13881334300847_2_alg».proof.Proof.Gen.Pre_finite_inputs
import proofs.«160215_j13881334300847_2_alg».proof.Proof.HostSide
import proofs.«160215_j13881334300847_2_alg».proof.Proof.RefSide
import proofs.«160215_j13881334300847_2_alg».proof.Proof.FiniteInputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From agreeing arguments whose entries are all real, the kernel ends at  x · (W + 2 · B · A)ᵀ + b  and the reference
    at  (x · Wᵀ + b) + ((x · Aᵀ) · Bᵀ) · 2 : the same array. -/
theorem algebraic : Cert.algebraic_KernelIdeal_ReferenceIdeal := by
  intro m ρ m' ρ' hpre hagree
  refine ⟨fun c => Cert.LoraSpec.kernelValue (Cert.KernelIdeal.HostSide.argX m c) (Cert.KernelIdeal.HostSide.argW m c)
    (Cert.KernelIdeal.HostSide.argb m c) (Cert.KernelIdeal.HostSide.argA m c) (Cert.KernelIdeal.HostSide.argB m c),
    Cert.KernelIdeal.HostSide.run m ρ, ?_⟩
  refine (θ_run Cert.ReferenceIdeal.defs _ _).mono (fun _ h c => ⟨(h c).1.trans
      ((Cert.ReferenceIdeal.Read.val_main_v8_eq _ _ _ _ _).trans ((Cert.ReferenceIdeal.RefSide.ref_value _ _ _ _ _).trans ?_)),
      (h c).2⟩) (Cert.ReferenceIdeal.Value.run (F := Ideal) m' ρ')
  rw [(hagree c).1, (hagree c).2.1, (hagree c).2.2.1, (hagree c).2.2.2.1, (hagree c).2.2.2.2]
  obtain ⟨hx, hW, hb, hA, hB⟩ := Cert.FiniteInputs.all_real _ _ _ _ _ (hpre c)
  exact (Cert.LoraSpec.kernelValue_eq_referenceValue _ _ _ _ _ hx hW hb hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
